-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024x1024x8 : Shape := ⟨3, ![1024, 1024, 8]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x1024x8 : S_.BroadcastsInDim S1024x1024x8 (![] : Fin 0 → Fin S1024x1024x8.rank)
  reducesTo_S1024x1024x8_S_d0_1_2 : S1024x1024x8.ReducesTo [0, 1, 2] S_

variable [Facts]

def fn {F : FTy → Type} [FloatOps F] (main_arg0 : FVec F S8192x1024 .f32) (main_arg1 : FVec F S1024x1024 .f32) (main_arg2 : FVec F S1024x1024x8 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024x8 .f32 := Host.absf main_arg2
  let main_cst_2 : FVec F S_ .f32 := constant S_ .f32 0x7F800000#32
  let main_v10 : FVec F S1024x1024x8 .f32 := broadcastInDim S1024x1024x8 ![] bcast_S_S1024x1024x8 main_cst_2
  let main_v11 : IVec S1024x1024x8 1 := cmpf .olt main_v9 main_v10
  let main_c_3 : IVec S_ 1 := constantI S_ 1 1#1
  let main_v12 : IVec S_ 1 := (fun x v => Host.reduce IntOp.andi x v reducesTo_S1024x1024x8_S_d0_1_2 h_S_) main_v11 main_c_3
  let main_v13 : IVec S_ 1 := andi main_v8 main_v12
  main_v13
-- ==== Kernel.lean ====
abbrev S8192x1024 : Shape := ⟨2, ![8192, 1024]⟩
abbrev S1024x1024 : Shape := ⟨2, ![1024, 1024]⟩
abbrev S1024x1024x8 : Shape := ⟨3, ![1024, 1024, 8]⟩
abbrev S_ : Shape := ⟨0, ![]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024x8, .f32⟩
  | .hbm, ⟨3, _⟩ => ⟨S_, .f32⟩
  | .hbm, ⟨4, _⟩ => ⟨S1024x1024, .f32⟩
  | .hbm, ⟨5, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S1024x1024x8_S1024x1024_d2 : S1024x1024x8.ReducesTo [2] S1024x1024
  h_S_ : 0 < S_.numel
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024x1024x8 : Shape := ⟨3, ![1024, 1024, 8]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024x8, .f32⟩
  | .hbm, ⟨3, _⟩ => ⟨S1024x1024, .f32⟩
  | .hbm, ⟨4, _⟩ => ⟨S8192x1024, .f32⟩
  | .hbm, ⟨5, _⟩ => ⟨S_, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S1024x1024, .f32⟩
  | .hbm, ⟨17, _⟩ => ⟨S8192x1024, .f32⟩
  | .hbm, ⟨18, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]

class Facts₀ : Prop where
  transposes_S1024x1024_S1024x1024_1_0 : S1024x1024.Transposes [1, 0] S1024x1024
  reducesTo_S1024x1024x8_S1024x1024_d2 : S1024x1024x8.ReducesTo [2] S1024x1024
  h_S_ : 0 < S_.numel
  bcast_S_S8192x1024 : S_.BroadcastsInDim S8192x1024 (![] : Fin 0 → Fin S8192x1024.rank)
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.KanSpec.lean ====
/-
  The layer as one function of its three argument arrays, index by index, on the extended reals.

  For an input row b and an output feature o,
      layer x W S (b, o) = Σ_k x(b,k) · W(o,k)  +  Σ_k silu(x(b,k)) · (Σ_g S(o,k,g)),
  with silu(t) = t · σ(t) and σ(t) = 1 / (1 + e^(−t)): a linear map of the inputs plus a linear map of
  their activations, the second one's matrix being the spline coefficients added over their last axis.
  Both sums run over the 1024 input features; the inner one over the 8 spline coefficients, started
  from the f32 word of zero as both programs start it.

  Also here: the word 0x3F800000 is the real number 1, so that σ spelt with that word is σ; and the
  sum over the last axis of a [1024, 1024, 8] array read at an entry (o, k).
-/
import Idealize.ShloMosaic.PureOps.Ideal
import Idealize.ShloMosaic.PureOps.Ideal.Laws
import Idealize.ShloMosaic.Lib.ValueIdx

noncomputable section

namespace Cert.Kan

open Idealize.ShloMosaic Idealize.ShloMosaic.ValueIdx

/-- The activation t · σ(t), σ(t) = 1 / (1 + e^(−t)), on every extended real (σ(−∞) = 0, σ(+∞) = 1). -/
def silu (t : EReal) : EReal := t * Ideal.logistic t

/-- Entry (o, k) of the spline coefficients added over their last axis, from the f32 word of zero. -/
def splineSum (S : (⟨3, ![1024, 1024, 8]⟩ : Shape).Idx → EReal) (o k : Fin 1024) : EReal :=
  Ideal.ofBits .f32 0x00000000#32 + ∑ g : Fin 8, S (ix3 o k g)

/-- Entry (b, o) of the layer: the inputs against row o of the base weights, plus their activations
    against row o of the summed spline coefficients. -/
def layerAt (x : (⟨2, ![8192, 1024]⟩ : Shape).Idx → EReal) (W : (⟨2, ![1024, 1024]⟩ : Shape).Idx → EReal)
    (S : (⟨3, ![1024, 1024, 8]⟩ : Shape).Idx → EReal) (b : Fin 8192) (o : Fin 1024) : EReal :=
  (∑ k : Fin 1024, x (ix2 b k) * W (ix2 o k)) + ∑ k : Fin 1024, silu (x (ix2 b k)) * splineSum S o k

/-- The layer as an array of shape [8192, 1024]. -/
def layer (x : (⟨2, ![8192, 1024]⟩ : Shape).Idx → EReal) (W : (⟨2, ![1024, 1024]⟩ : Shape).Idx → EReal)
    (S : (⟨3, ![1024, 1024, 8]⟩ : Shape).Idx → EReal) : (⟨2, ![8192, 1024]⟩ : Shape).Idx → EReal :=
  fun i => layerAt x W S (i 0) (i 1)

theorem layer_ix2 (x : (⟨2, ![8192, 1024]⟩ : Shape).Idx → EReal) (W : (⟨2, ![1024, 1024]⟩ : Shape).Idx → EReal)
    (S : (⟨3, ![1024, 1024, 8]⟩ : Shape).Idx → EReal) (b : Fin 8192) (o : Fin 1024) :
    layer x W S (ix2 b o) = layerAt x W S b o := rfl

/-- The f32 word 0x3F800000 is the real number 1. -/
theorem word_one : Ideal.ofBits .f32 0x3F800000#32 = 1 := by
  simp [Ideal.ofBits, Ideal.ieee, -EReal.coe_mul]; norm_num

/-- t times the quotient 1 / (1 + e^(−t)), the two ones given by their f32 word, is the activation. -/
theorem silu_of_words (t : EReal) :
    t * Ideal.div (Ideal.ofBits .f32 0x3F800000#32) (Ideal.ofBits .f32 0x3F800000#32 + Ideal.exp (-t)) = silu t := by
  rw [word_one]; rfl

/-- A [1024, 1024, 8] array added over its last axis from the f32 word of zero, read at (o, k). -/
theorem reduceAdd_last_apply (S : FVec Ideal ⟨3, ![1024, 1024, 8]⟩ .f32)
    (h' : (⟨3, ![1024, 1024, 8]⟩ : Shape).ReducesTo [2] ⟨2, ![1024, 1024]⟩) (h0 : 0 < (⟨0, ![]⟩ : Shape).numel)
    (o k : Fin 1024) :
    Host.reduceAdd (F := Ideal) S (constant (F := Ideal) ⟨0, ![]⟩ .f32 0x00000000#32) h' h0 (ix2 o k) = splineSum S o k := by
  simp only [Host.reduceAdd, Ideal.hostReduceAdd_def]
  rw [Ideal.hostReduceAdd_single h' (by decide)]
  unfold splineSum
  refine congrArg (_ + ·) (Finset.sum_congr rfl fun g _ => ?_)
  exact congrArg S (funext fun a => Fin.ext (by match a with | ⟨0, _⟩ => rfl | ⟨1, _⟩ => rfl | ⟨2, _⟩ => rfl))

end Cert.Kan

end
-- ==== Proof.KanPayload.lean ====
/-
  What the kernel body stores, read at an entry of its [512, 1024] block.

  The body loads a block of 512 input rows and both whole weight matrices, multiplies the rows against
  the base weights and their activations against the summed spline weights, each product contracting
  the second axis of BOTH operands (so row p of the left operand meets row q of the right one), and
  stores the sum of the two products. On the extended reals a change of float format is the identity
  and a product into a zero accumulator is the plain sum of products, so entry (p, q) of the stored
  block is
      Σ_k rows(p,k) · W(q,k)  +  Σ_k silu(rows(p,k)) · T(q,k).
-/
import proofs.«155683_j66597762892081_1_alg».proof.Proof.Gen.KernelIdeal.Skeleton
import proofs.«155683_j66597762892081_1_alg».proof.Proof.KanSpec
import Idealize.ShloMosaic.PureOps.Ideal.Laws
import Idealize.ShloMosaic.Lib.ValueIdx
import Idealize.ShloMosaic.Lib.Pipeline.Value

noncomputable section

namespace Cert.Kan

open Cert.KernelIdeal Cert.KernelIdeal.Gen Idealize.ShloMosaic Idealize.ShloMosaic.ValueIdx

/-- The left operand's row coordinate is the output's row coordinate. -/
theorem lhs_row (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl

/-- The left operand's column coordinate is the contraction index. -/
theorem lhs_col (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q

/-- The right operand's ROW coordinate is the output's column coordinate: the right operand is met row by row. -/
theorem rhs_row (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl

/-- The right operand's column coordinate is the contraction index. -/
theorem rhs_col (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The body's matrix product into a zero accumulator, at entry (p, q): row p of the left operand against
    row q of the right one, summed over the 1024 columns they share. -/
theorem matmul_rows {φ₁ φ₂ : FTy} (l : FVec Ideal S512x1024 φ₁) (r : FVec Ideal S1024x1024 φ₂) (p : Fin 512) (q : Fin 1024) :
    matmul dot_S512x1024_S1024x1024_S512x1024_1_1_0_0_n_n none l r (constant (F := Ideal) S512x1024 .f32 0x00000000#32) (ix2 p q)
      = ∑ k : Fin 1024, l (ix2 p k) * r (ix2 q k) := by
  refine (Ideal.matmul_constant_zero_apply dot_S512x1024_S1024x1024_S512x1024_1_1_0_0_n_n none l r (ix2 p q)).trans ?_
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p q)
      ((contrEquiv1 dot_S512x1024_S1024x1024_S512x1024_1_1_0_0_n_n 1024 rfl rfl).symm k) = ix2 p k :=
    funext fun a => Fin.ext (by
      match a with
      | ⟨0, _⟩ => exact lhs_row _ _
      | ⟨1, _⟩ => exact (lhs_col _ _).trans hk)
  have er : dot_S512x1024_S1024x1024_S512x1024_1_1_0_0_n_n.rhsIdx (ix2 p q)
      ((contrEquiv1 dot_S512x1024_S1024x1024_S512x1024_1_1_0_0_n_n 1024 rfl rfl).symm k) = ix2 q k :=
    funext fun a => Fin.ext (by
      match a with
      | ⟨0, _⟩ => exact rhs_row _ _
      | ⟨1, _⟩ => exact (rhs_col _ _).trans hk)
  rw [el, er]

/-- Entry (p, q) of the block the body stores, from the three blocks it loads: the input rows, the base
    weights and the summed spline weights. -/
theorem stored_apply (rows : Vec Ideal S512x1024 .f32) (W T : Vec Ideal S1024x1024 .f32) (p : Fin 512) (q : Fin 1024) :
    k0_pay1 (F := Ideal) rows W T (ix2 p q)
      = (∑ k : Fin 1024, rows (ix2 p k) * W (ix2 q k)) + ∑ k : Fin 1024, silu (rows (ix2 p k)) * T (ix2 q k) := by
  unfold k0_pay1
  rw [shapeCast_self]
  refine ((addf_apply _ _ _).trans (congrArg₂ (· + ·) (matmul_rows _ _ p q) (matmul_rows _ _ p q))).trans ?_
  rfl

/-- A stored entry is the layer's entry: when the loaded rows are rows r0, r0 + 1, … of the input array, the
    second block is the base weights and the third is the spline coefficients added over their last
    axis, entry y of the stored block is the layer at row r0 + y₀ and feature y₁. -/
theorem stored_eq_layer (rows : Vec Ideal S512x1024 .f32) (Wb T : Vec Ideal S1024x1024 .f32)
    (x : (⟨2, ![8192, 1024]⟩ : Shape).Idx → EReal) (W : (⟨2, ![1024, 1024]⟩ : Shape).Idx → EReal)
    (S : (⟨3, ![1024, 1024, 8]⟩ : Shape).Idx → EReal) (r0 : Nat)
    (hrows : ∀ (p : Fin 512) (k : Fin 1024) (hb : r0 + p.val < 8192), rows (ix2 p k) = x (ix2 ⟨r0 + p.val, hb⟩ k))
    (hW : ∀ o k : Fin 1024, Wb (ix2 o k) = W (ix2 o k))
    (hT : ∀ o k : Fin 1024, T (ix2 o k) = splineSum S o k)
    (y : S512x1024.Idx) (i : (⟨2, ![8192, 1024]⟩ : Shape).Idx)
    (hi0 : (i 0).val = r0 + (y 0).val) (hi1 : (i 1).val = (y 1).val) :
    k0_pay1 (F := Ideal) rows Wb T y = layer x W S i := by
  obtain ⟨p, q, rfl⟩ : ∃ (p : Fin 512) (q : Fin 1024), y = ix2 p q := ⟨y 0, y 1, eq_ix2 y⟩
  have hb : r0 + p.val < 8192 := by
    have hlt : (i 0).val < 8192 := (i 0).isLt
    have h : (i 0).val = r0 + p.val := hi0
    omega
  obtain rfl : i = ix2 ⟨r0 + p.val, hb⟩ q :=
    funext fun a => Fin.ext (by match a with | ⟨0, _⟩ => exact hi0 | ⟨1, _⟩ => exact hi1)
  rw [stored_apply, layer_ix2]
  unfold layerAt
  refine congrArg₂ (fun u v : EReal => u + v) (Finset.sum_congr rfl fun k _ => ?_) (Finset.sum_congr rfl fun k _ => ?_)
  · rw [hrows p k hb, hW]
  · rw [hrows p k hb, hT]

end Cert.Kan

end
-- ==== Proof.KanBlocks.lean ====
/-
  From the blocks the kernel writes to its whole result array.

  The kernel runs over 16 grid points. At point t it is given rows 512·t … 512·t + 511 of the input
  array, the whole base-weight matrix, and the whole matrix of spline coefficients added over their last
  axis (computed before the launch), and writes back rows 512·t … 512·t + 511 of the result. Each
  written entry is the layer's entry at its place in the array; the 16 blocks cover all 8192 rows (row r
  lies in the block of point r / 512); so the result array ends holding the layer of the three
  argument arrays.
-/
import proofs.«155683_j66597762892081_1_alg».proof.Proof.Gen.KernelIdeal.Value
import proofs.«155683_j66597762892081_1_alg».proof.Proof.KanPayload
import Idealize.ShloMosaic.Lib.Pipeline.Value
import Idealize.ShloMosaic.Lib.StableHlo.Run
import Idealize.ShloMosaic.Lib.Tactic

noncomputable section

namespace Cert.Kan.Kernel

open Cert.KernelIdeal Cert.KernelIdeal.Gen Cert.Kan
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block index of each window at each of the 16 grid points: the input rows and the result move with
    the point along the row axis; the two weight matrices stay at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What the launch finds in the third operand's array: the spline coefficients added over their last axis. -/
theorem summed_spline (c : Dev nD) :
    (V m c main_v0 : S1024x1024.Idx → EReal)
      = Host.reduceAdd (F := Ideal) (m ((c : Thread nD τ).loc main_arg2)) (constant (F := Ideal) S_ .f32 0x00000000#32)
          reducesTo_S1024x1024x8_S1024x1024_d2 h_S_ := by
  dsimp only [Gen.V, Gen.hostOps0]; after_results <;> rfl

/-- The input block at point t is rows 512·t … of the input array. -/
theorem rows_apply (c : Dev nD) (t : Fin cfg0.N) (p : Fin 512) (k : Fin 1024) (hb : 512 * t.val + p.val < 8192) :
    (iblk m c 0 t : Vec Ideal S512x1024 .f32) (ix2 p k)
      = (m ((c : Thread nD τ).loc main_arg0) : S8192x1024.Idx → EReal) (ix2 ⟨512 * t.val + p.val, hb⟩ k) := by
  obtain ⟨e0, e1, -⟩ := block_indices t
  unfold iblk
  rw [View.read_apply]
  show V m c main_arg0 _ = _
  rw [V_main_arg0]
  refine congrArg _ (funext fun a => Fin.ext ?_)
  match a with
  | ⟨0, _⟩ => show win0_0.index t (0 : Fin 2) * 512 + 1 * p.val = 512 * t.val + p.val; rw [e0]; omega
  | ⟨1, _⟩ => show win0_0.index t (1 : Fin 2) * 1024 + 1 * k.val = k.val; rw [e1]; omega

/-- The second block at every point is the whole base-weight matrix. -/
theorem base_apply (c : Dev nD) (t : Fin cfg0.N) (o k : Fin 1024) :
    (iblk m c 1 t : Vec Ideal S1024x1024 .f32) (ix2 o k)
      = (m ((c : Thread nD τ).loc main_arg1) : S1024x1024.Idx → EReal) (ix2 o k) := by
  obtain ⟨-, -, e2, e3, -⟩ := block_indices t
  unfold iblk
  rw [View.read_apply]
  show V m c main_arg1 _ = _
  rw [V_main_arg1]
  refine congrArg _ (funext fun a => Fin.ext ?_)
  match a with
  | ⟨0, _⟩ => show win0_1.index t (0 : Fin 2) * 1024 + 1 * o.val = o.val; rw [e2]; omega
  | ⟨1, _⟩ => show win0_1.index t (1 : Fin 2) * 1024 + 1 * k.val = k.val; rw [e3]; omega

/-- The third block at every point is the whole matrix of summed spline coefficients. -/
theorem spline_apply (c : Dev nD) (t : Fin cfg0.N) (o k : Fin 1024) :
    (iblk m c 2 t : Vec Ideal S1024x1024 .f32) (ix2 o k)
      = splineSum (m ((c : Thread nD τ).loc main_arg2)) o k := by
  obtain ⟨-, -, -, -, e4, e5, -⟩ := block_indices t
  unfold iblk
  rw [View.read_apply]
  show (V m c main_v0 : S1024x1024.Idx → EReal) _ = _
  rw [summed_spline]
  refine Eq.trans (congrArg _ (funext fun a => Fin.ext ?_)) (reduceAdd_last_apply _ _ _ o k)
  match a with
  | ⟨0, _⟩ => show win0_2.index t (0 : Fin 2) * 1024 + 1 * o.val = o.val; rw [e4]; omega
  | ⟨1, _⟩ => show win0_2.index t (1 : Fin 2) * 1024 + 1 * k.val = k.val; rw [e5]; omega

/-- What point t writes back is block t of the layer of the three argument arrays. -/
theorem flushed_eq (c : Dev nD) (t : Fin cfg0.N) :
    (dats m 0 c).flushed 3 t = ((cfg0.win 3).blk t).view.read (Elt Ideal)
      (layer (m ((c : Thread nD τ).loc main_arg0)) (m ((c : Thread nD τ).loc main_arg1)) (m ((c : Thread nD τ).loc main_arg2))) := by
  rw [Cert.KernelIdeal.Value.flushed3]
  unfold out0_3
  rw [View.canon_unit_zero zero_offsets]
  simp only [View.ld_unit_zero (S := S512x1024) zero_offsets, View.ld_unit_zero (S := S1024x1024) zero_offsets]
  obtain ⟨-, -, -, -, -, -, e6, e7⟩ := block_indices t
  funext y
  show k0_pay1 (F := Ideal) (iblk m c 0 t) (iblk m c 1 t) (iblk m c 2 t) y
    = layer (m ((c : Thread nD τ).loc main_arg0)) (m ((c : Thread nD τ).loc main_arg1)) (m ((c : Thread nD τ).loc main_arg2))
        (((cfg0.win 3).blk t).view.emb y)
  refine stored_eq_layer (iblk m c 0 t) (iblk m c 1 t) (iblk m c 2 t) _ _ _ (512 * t.val)
    (fun p k hb => rows_apply m c t p k hb) (fun o k => base_apply m c t o k) (fun o k => spline_apply m c t o k) y _ ?_ ?_
  · show win0_3.index t (0 : Fin 2) * 512 + 1 * (y 0).val = 512 * t.val + (y 0).val; rw [e6]; omega
  · show win0_3.index t (1 : Fin 2) * 1024 + 1 * (y 1).val = (y 1).val; rw [e7]; omega

/-- An entry of the result array is in point t's block iff each coordinate is in the block's range. -/
theorem mem_block (t : Fin cfg0.N) (i : S8192x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v1).slice (win0_3.rect t)).set ↔ _
  rw [View.set_slice_whole, Rect.mem_set_unit]
  exact Iff.rfl

/-- Every entry of the result array is written by some point: row r by point r / 512. -/
theorem covered (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, e6, e7⟩ := block_indices t
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    rw [e6, ht]; omega
  | ⟨1, _⟩ =>
    show win0_3.index t (1 : Fin 2) * 1024 ≤ (i 1).val ∧ (i 1).val < win0_3.index t (1 : Fin 2) * 1024 + 1024
    rw [e7]; omega

/-- The result array after the run is the layer of the three argument arrays. -/
theorem result_eq (c : Dev nD) :
    (dats m 0 c).arrAt 3 cfg0.N
      = layer (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: every weakly fair execution terminates with the result array at the layer of the
    argument arrays and the arguments unchanged. -/
theorem run : θ_run defs (onTc (τ := τ) (main (F := Ideal))) ⟨m, fun _ => 0, ρ⟩ fun r => ∀ c : Dev nD,
      r.2.mem ((c : Thread nD τ).loc main_v1)
        = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_eq m c), (h c).2⟩)
    (Cert.KernelIdeal.Value.run_blocks m ρ)

end Cert.Kan.Kernel

end
-- ==== Proof.KanReference.lean ====
/-
  The reference computes the layer.

  The reference multiplies the inputs by the transposed base weights, adds the spline coefficients over
  their last axis, transposes that sum, multiplies the activations of the inputs by it, and adds the two
  products. Read at an entry (b, o): a product with a transposed matrix meets row o of the matrix, so
  the first product is Σ_k x(b,k) · W(o,k) and the second Σ_k silu(x(b,k)) · (Σ_g S(o,k,g)); the
  activation is spelt t · (1 / (1 + e^(−t))) with both ones the f32 word of 1.
-/
import proofs.«155683_j66597762892081_1_alg».proof.Proof.Gen.ReferenceIdeal.Read
import proofs.«155683_j66597762892081_1_alg».proof.Proof.KanSpec

noncomputable section

namespace Cert.Kan.Reference

open Cert.ReferenceIdeal Cert.ReferenceIdeal.Read Cert.Kan Idealize.ShloMosaic Idealize.ShloMosaic.ValueIdx

/-- The reference's result, as a function of the three argument arrays, is the layer. -/
theorem result_eq (x : (⟨S8192x1024, .f32⟩ : BufTy).Contents (Elt Ideal)) (W : (⟨S1024x1024, .f32⟩ : BufTy).Contents (Elt Ideal))
    (S : (⟨S1024x1024x8, .f32⟩ : BufTy).Contents (Elt Ideal)) :
    val_main_v6 (F := Ideal) x W S = layer x W S := by
  funext i
  obtain ⟨b, o, rfl⟩ : ∃ (b : Fin 8192) (o : Fin 1024), i = ix2 b o := ⟨i 0, i 1, eq_ix2 i⟩
  rw [layer_ix2, val_main_v6_apply, val_main_v1_apply, val_main_v5_apply]
  unfold layerAt
  refine congrArg₂ (fun u v : EReal => u + v) (Finset.sum_congr rfl fun k _ => ?_) (Finset.sum_congr rfl fun k _ => ?_)
  · -- the inputs against the transposed base weights
    have e1 : lidx_main_v1 (ix2 b o) k = ix2 b k :=
      funext fun a => Fin.ext (by match a with | ⟨0, _⟩ => rfl | ⟨1, _⟩ => rfl)
    have e2 : idx_main_v0 (ridx_main_v1 (ix2 b o) k) = ix2 o k :=
      funext fun a => Fin.ext (by match a with | ⟨0, _⟩ => rfl | ⟨1, _⟩ => rfl)
    rw [val_main_v0_apply, e1, e2]
  · -- the activations against the transposed sum of the spline coefficients
    have e1 : lidx_main_v5 (ix2 b o) k = ix2 b k :=
      funext fun a => Fin.ext (by match a with | ⟨0, _⟩ => rfl | ⟨1, _⟩ => rfl)
    have e2 : idx_main_v4 (ridx_main_v5 (ix2 b o) k) = ix2 o k :=
      funext fun a => Fin.ext (by match a with | ⟨0, _⟩ => rfl | ⟨1, _⟩ => rfl)
    rw [val_main_v4_apply, e1, e2, val_main_v3_apply, val_main_call0_v5_apply, val_main_call0_v4_apply,
      val_main_call0_cst_0_apply, val_main_call0_v3_apply, val_main_call0_v2_apply, val_main_call0_cst_apply,
      val_main_call0_v1_apply, val_main_call0_v0_apply]
    refine congrArg₂ (fun u v : EReal => u * v) (silu_of_words (x (ix2 b k))) ?_
    unfold val_main_v2 val_main_cst
    exact reduceAdd_last_apply S _ _ o k

end Cert.Kan.Reference

end
-- ==== Proof.lean ====
/-
  A layer with a base branch and a spline branch: the kernel against its reference.

  With x the [8192, 1024] inputs, W the [1024, 1024] base weights and S the [1024, 1024, 8] spline
  coefficients, both programs compute, at row b and output feature o,
      Σ_k x(b,k) · W(o,k)  +  Σ_k silu(x(b,k)) · (Σ_g S(o,k,g)),      silu(t) = t / (1 + e^(−t)).
  The kernel adds the spline coefficients over their last axis before its launch, then for each of 16
  blocks of 512 rows forms both matrix products (each contracting the second axis of both operands,
  the operands rounded to bf16 on the way in) and writes their sum; the reference transposes both
  weight matrices and uses ordinary matrix products. On the extended reals a change of float format
  is the identity, a matrix product is the sum of products, the kernel's logistic function and the
  reference's quotient 1 / (1 + e^(−t)) are one function at every extended real, and the sums are the
  same sums of the same terms in the same order: the equality uses no law of arithmetic and so does
  not need the inputs to be finite.

  Proof/KanSpec.lean states the function; Proof/KanReference.lean shows the reference computes it
  (over the reference's run read one operation at a time); Proof/KanPayload.lean reads the value the
  kernel body stores at an entry; Proof/KanBlocks.lean goes from the 16 written blocks to the whole
  result array. The three programs' runs (termination, no fault, arguments unchanged) are the
  generated frame certificates and the generated reference run; the idealization rewrote nothing.
-/
import proofs.«155683_j66597762892081_1_alg».proof.Defs
import proofs.«155683_j66597762892081_1_alg».proof.Proof.Gen.Kernel
import proofs.«155683_j66597762892081_1_alg».proof.Proof.Gen.Kernel.Frame
import proofs.«155683_j66597762892081_1_alg».proof.Proof.Gen.KernelIdeal
import proofs.«155683_j66597762892081_1_alg».proof.Proof.Gen.KernelIdeal.Frame
import proofs.«155683_j66597762892081_1_alg».proof.Proof.Gen.KernelIdeal.Value
import proofs.«155683_j66597762892081_1_alg».proof.Proof.Gen.ReferenceIdeal
import proofs.«155683_j66597762892081_1_alg».proof.Proof.Gen.ReferenceIdeal.Run
import proofs.«155683_j66597762892081_1_alg».proof.Proof.Gen.ReferenceIdeal.Read
import proofs.«155683_j66597762892081_1_alg».proof.Proof.Gen.Pre_finite_inputs
import proofs.«155683_j66597762892081_1_alg».proof.Proof.KanBlocks
import proofs.«155683_j66597762892081_1_alg».proof.Proof.KanReference
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with what it computes dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From arguments that agree, the kernel's result array and the reference's both end at the layer of
    those arguments. -/
theorem algebraic : Cert.algebraic_KernelIdeal_ReferenceIdeal := by
  intro m ρ m' ρ' _ hagree
  refine ⟨fun c => Cert.Kan.layer (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.Kan.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.Kan.Reference.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
